-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2x524288 : Shape := ⟨2, ![2, 524288]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512 .f32) (main_arg9 : FVec F S512x512 .f32) (main_arg10 : FVec F S512x512 .f32) (main_arg11 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S65536x512 .f32) (main_arg1 : IVec S2x524288 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_v13 main_v16
-- ==== Kernel.lean ====
abbrev S65536x512 : Shape := ⟨2, ![65536, 512]⟩
abbrev S2x524288 : Shape := ⟨2, ![2, 524288]⟩
abbrev S512x512 : Shape := ⟨2, ![512, 512]⟩
abbrev S512 : Shape := ⟨1, ![512]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x512 : Shape := ⟨2, ![524288, 512]⟩
abbrev S1024x512 : Shape := ⟨2, ![1024, 512]⟩
abbrev S1x512 : Shape := ⟨2, ![1, 512]⟩

abbrev nBuf : Space → Nat
  | .hbm => 56
  | .vmem => 22
  | .smem => 0
  | _ => 0

abbrev bufTy : (tb : Table) → Fin (tcTables nBuf tb) → BufTy
  | .hbm, ⟨0, _⟩ => ⟨S65536x512, .f32⟩
  | .hbm, ⟨1, _⟩ => ⟨S2x524288, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S1x524288, .i32⟩
  | .hbm, ⟨13, _⟩ => ⟨S524288, .i32⟩
  | .hbm, ⟨14, _⟩ => ⟨S1x524288, .i32⟩
  | .hbm, ⟨15, _⟩ => ⟨S524288, .i32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x512, .f32⟩
  | .hbm, ⟨25, _⟩ => ⟨S_, .f32⟩
  | .hbm, ⟨26, _⟩ => ⟨S65536x512, .f32⟩
  | .hbm, ⟨27, _⟩ => ⟨S524288x1, .i32⟩
  | .hbm, ⟨28, _⟩ => ⟨S65536x512, .f32⟩
  | .hbm, ⟨29, _⟩ => ⟨S512x512, .f32⟩
  | .hbm, ⟨30, _⟩ => ⟨S512x512, .bf16⟩
  | .hbm, ⟨31, _⟩ => ⟨S512x512, .f32⟩
  | .hbm, ⟨32, _⟩ => ⟨S512x512, .bf16⟩
  | .hbm, ⟨33, _⟩ => ⟨S512x512, .f32⟩
  | .hbm, ⟨34, _⟩ => ⟨S512x512, .bf16⟩
  | .hbm, ⟨35, _⟩ => ⟨S65536x512, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x512, .f32⟩
  | .hbm, ⟨45, _⟩ => ⟨S_, .f32⟩
  | .hbm, ⟨46, _⟩ => ⟨S65536x512, .f32⟩
  | .hbm, ⟨47, _⟩ => ⟨S524288x1, .i32⟩
  | .hbm, ⟨48, _⟩ => ⟨S65536x512, .f32⟩
  | .hbm, ⟨49, _⟩ => ⟨S512x512, .f32⟩
  | .hbm, ⟨50, _⟩ => ⟨S512x512, .bf16⟩
  | .hbm, ⟨51, _⟩ => ⟨S512x512, .f32⟩
  | .hbm, ⟨52, _⟩ => ⟨S512x512, .bf16⟩
  | .hbm, ⟨53, _⟩ => ⟨S512x512, .f32⟩
  | .hbm, ⟨54, _⟩ => ⟨S512x512, .bf16⟩
  | .hbm, ⟨55, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512x512, .bf16⟩
  | .local _ .vmem, ⟨8, _⟩ => ⟨S512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S512x512, .bf16⟩
  | .local _ .vmem, ⟨16, _⟩ => ⟨S512, .f32⟩
  | .local _ .vmem, ⟨17, _⟩ => ⟨S512x512, .bf16⟩
  | .local _ .vmem, ⟨18, _⟩ => ⟨S512x512, .bf16⟩
  | .local _ .vmem, ⟨19, _⟩ => ⟨S512, .f32⟩
  | .local _ .vmem, ⟨20, _⟩ => ⟨S1024x512, .f32⟩
  | .local _ .vmem, ⟨21, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S65536x512 : S_.BroadcastsInDim S65536x512 (![] : Fin 0 → Fin S65536x512.rank)
  transposes_S512x512_S512x512_1_0 : S512x512.Transposes [1, 0] S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S65536x512.size a
  hwx0_7 : ∀ i : grid0.Coords, EltTy.bits .f32 = 32 ∨ (Rect.block (s := S65536x512) S1024x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .f32 = 32 ∨ (Rect.block (s := S65536x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S65536x512.size a
  hwx1_1 : ∀ i : grid1.Coords, EltTy.bits .f32 = 32 ∨ (Rect.block (s := S65536x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S65536x512.size a
  hwx1_7 : ∀ i : grid1.Coords, EltTy.bits .f32 = 32 ∨ (Rect.block (s := S65536x512) S1024x512.size (cc1_transform_7 i) (hinb1_7 i)).WholeWords (EltTy.packing .f32)

variable [Facts₀]

def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v13) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x512 : Shape := ⟨2, ![65536, 512]⟩
abbrev S2x524288 : Shape := ⟨2, ![2, 524288]⟩
abbrev S512x512 : Shape := ⟨2, ![512, 512]⟩
abbrev S512 : Shape := ⟨1, ![512]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x512 : Shape := ⟨2, ![524288, 512]⟩
abbrev S1x512 : Shape := ⟨2, ![1, 512]⟩

abbrev nBuf : Space → Nat
  | .hbm => 74
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2x524288, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S1x524288, .i32⟩
  | .hbm, ⟨13, _⟩ => ⟨S524288, .i32⟩
  | .hbm, ⟨14, _⟩ => ⟨S1x524288, .i32⟩
  | .hbm, ⟨15, _⟩ => ⟨S524288, .i32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x512, .f32⟩
  | .hbm, ⟨25, _⟩ => ⟨S_, .f32⟩
  | .hbm, ⟨26, _⟩ => ⟨S65536x512, .f32⟩
  | .hbm, ⟨27, _⟩ => ⟨S524288x1, .i32⟩
  | .hbm, ⟨28, _⟩ => ⟨S65536x512, .f32⟩
  | .hbm, ⟨29, _⟩ => ⟨S512x512, .f32⟩
  | .hbm, ⟨30, _⟩ => ⟨S65536x512, .f32⟩
  | .hbm, ⟨31, _⟩ => ⟨S1x512, .f32⟩
  | .hbm, ⟨32, _⟩ => ⟨S65536x512, .f32⟩
  | .hbm, ⟨33, _⟩ => ⟨S65536x512, .f32⟩
  | .hbm, ⟨34, _⟩ => ⟨S512x512, .f32⟩
  | .hbm, ⟨35, _⟩ => ⟨S65536x512, .f32⟩
  | .hbm, ⟨36, _⟩ => ⟨S65536x512, .f32⟩
  | .hbm, ⟨37, _⟩ => ⟨S512x512, .f32⟩
  | .hbm, ⟨38, _⟩ => ⟨S65536x512, .f32⟩
  | .hbm, ⟨39, _⟩ => ⟨S1x512, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S524288x1, .i32⟩
  | .hbm, ⟨53, _⟩ => ⟨S524288x512, .f32⟩
  | .hbm, ⟨54, _⟩ => ⟨S_, .f32⟩
  | .hbm, ⟨55, _⟩ => ⟨S65536x512, .f32⟩
  | .hbm, ⟨56, _⟩ => ⟨S524288x1, .i32⟩
  | .hbm, ⟨57, _⟩ => ⟨S65536x512, .f32⟩
  | .hbm, ⟨58, _⟩ => ⟨S512x512, .f32⟩
  | .hbm, ⟨59, _⟩ => ⟨S65536x512, .f32⟩
  | .hbm, ⟨60, _⟩ => ⟨S1x512, .f32⟩
  | .hbm, ⟨61, _⟩ => ⟨S65536x512, .f32⟩
  | .hbm, ⟨62, _⟩ => ⟨S65536x512, .f32⟩
  | .hbm, ⟨63, _⟩ => ⟨S512x512, .f32⟩
  | .hbm, ⟨64, _⟩ => ⟨S65536x512, .f32⟩
  | .hbm, ⟨65, _⟩ => ⟨S65536x512, .f32⟩
  | .hbm, ⟨66, _⟩ => ⟨S512x512, .f32⟩
  | .hbm, ⟨67, _⟩ => ⟨S65536x512, .f32⟩
  | .hbm, ⟨68, _⟩ => ⟨S1x512, .f32⟩
  | .hbm, ⟨69, _⟩ => ⟨S65536x512, .f32⟩
  | .hbm, ⟨70, _⟩ => ⟨S65536x512, .f32⟩
  | .hbm, ⟨71, _⟩ => ⟨S_, .f32⟩
  | .hbm, ⟨72, _⟩ => ⟨S65536x512, .f32⟩
  | .hbm, ⟨73, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S65536x512 : S_.BroadcastsInDim S65536x512 (![] : Fin 0 → Fin S65536x512.rank)
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1
  dot_S65536x512_S512x512_S65536x512_1_0_0_1_n_n_wf : DotDims.WF S65536x512 S512x512 S65536x512 [1] [0] [0] [1] [] []

variable [Facts₀]

def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.LayerSpec.lean ====
/-
  One GraphConv + Linear + ReLU layer over the extended reals, as a function of its operands read index by index.

  For a node-feature matrix `H` (one row per node), the neighbour sums `A` (row `r` of `A` is the sum of the rows of `H` over
  the edges into node `r`), three 512 × 512 weight matrices already transposed (`Wr`, `Wo`, `Wl`: entry `(j, k)` multiplies input
  feature `j` into output feature `k`) and two bias rows, the layer's value at node `r` and feature `q` is

      max (Σ_k (Σ_j A[r,j]·Wr[j,k] + Σ_j H[r,j]·Wo[j,k] + br[k]) · Wl[k,q] + bl[q]) 0 .

  Row `r` of the result depends on row `r` of `A` and of `H` only (`layerAt_rows`): this is what lets a block of rows be
  computed from the matching blocks of the operands.
-/
import Idealize.ShloMosaic.PureOps.Ideal
import Idealize.ShloMosaic.Lib.ValueIdx

noncomputable section

open scoped BigOperators

namespace Cert.GraphLayer

open Idealize.ShloMosaic Idealize.ShloMosaic.ValueIdx

/-- An `n × k` array of extended reals. -/
abbrev Mat (n k : Nat) : Type := (⟨2, ![n, k]⟩ : Shape).Idx → EReal
/-- A length-`k` array of extended reals. -/
abbrev Row (k : Nat) : Type := (⟨1, ![k]⟩ : Shape).Idx → EReal

/-- The graph convolution at node `r`, feature `k`: the neighbour sums through `Wr`, plus the node's own features through
    `Wo`, plus the bias. -/
def convAt {n : Nat} (A H : Mat n 512) (Wr Wo : Mat 512 512) (br : Row 512) (r : Fin n) (k : Fin 512) : EReal :=
  (∑ j : Fin 512, A (ix2 r j) * Wr (ix2 j k)) + (∑ j : Fin 512, H (ix2 r j) * Wo (ix2 j k)) + br (ix1 k)

/-- The layer at node `r`, feature `q`: the convolution through `Wl`, plus its bias, clamped below at zero. -/
def layerAt {n : Nat} (A H : Mat n 512) (Wr : Mat 512 512) (br : Row 512) (Wo Wl : Mat 512 512) (bl : Row 512)
    (r : Fin n) (q : Fin 512) : EReal :=
  max ((∑ k : Fin 512, convAt A H Wr Wo br r k * Wl (ix2 k q)) + bl (ix1 q)) (Ideal.ofBits .f32 0x00000000#32)

/-- The layer as a whole array. -/
def layer {n : Nat} (A H : Mat n 512) (Wr : Mat 512 512) (br : Row 512) (Wo Wl : Mat 512 512) (bl : Row 512) : Mat n 512 :=
  fun i => layerAt A H Wr br Wo Wl bl (i 0) (i 1)

theorem layer_ix2 {n : Nat} (A H : Mat n 512) (Wr : Mat 512 512) (br : Row 512) (Wo Wl : Mat 512 512) (bl : Row 512)
    (r : Fin n) (q : Fin 512) : layer A H Wr br Wo Wl bl (ix2 r q) = layerAt A H Wr br Wo Wl bl r q := rfl

/-- Row `r` of the layer reads row `r` of the two node arrays only: two pairs of arrays that agree on one row each give
    the same value there, whatever their numbers of rows. -/
theorem layerAt_rows {n n' : Nat} (A H : Mat n 512) (A' H' : Mat n' 512) (Wr : Mat 512 512) (br : Row 512)
    (Wo Wl : Mat 512 512) (bl : Row 512) (r : Fin n) (r' : Fin n')
    (hA : ∀ j : Fin 512, A (ix2 r j) = A' (ix2 r' j)) (hH : ∀ j : Fin 512, H (ix2 r j) = H' (ix2 r' j)) (q : Fin 512) :
    layerAt A H Wr br Wo Wl bl r q = layerAt A' H' Wr br Wo Wl bl r' q := by
  unfold layerAt convAt
  simp only [hA, hH]

/-- The layer at one entry depends on its operands only through the entries it reads: row `r` of the node arrays, and the
    weights and biases entry by entry. -/
theorem layerAt_congr {n n' : Nat} (A H : Mat n 512) (A' H' : Mat n' 512) (Wr Wr' : Mat 512 512) (br br' : Row 512)
    (Wo Wo' Wl Wl' : Mat 512 512) (bl bl' : Row 512) (r : Fin n) (r' : Fin n')
    (hA : ∀ j : Fin 512, A (ix2 r j) = A' (ix2 r' j)) (hH : ∀ j : Fin 512, H (ix2 r j) = H' (ix2 r' j))
    (hWr : ∀ j k : Fin 512, Wr (ix2 j k) = Wr' (ix2 j k)) (hbr : ∀ k : Fin 512, br (ix1 k) = br' (ix1 k))
    (hWo : ∀ j k : Fin 512, Wo (ix2 j k) = Wo' (ix2 j k)) (hWl : ∀ j k : Fin 512, Wl (ix2 j k) = Wl' (ix2 j k))
    (hbl : ∀ k : Fin 512, bl (ix1 k) = bl' (ix1 k)) (q : Fin 512) :
    layerAt A H Wr br Wo Wl bl r q = layerAt A' H' Wr' br' Wo' Wl' bl' r' q := by
  unfold layerAt convAt
  simp only [hA, hH, hWr, hbr, hWo, hWl, hbl]

end Cert.GraphLayer

end
-- ==== Proof.RefLayer.lean ====
/-
  The reference, read as two applications of the layer function.

  The reference computes, twice over, `relu((agg · W_relᵀ + b_rel + h · W_rootᵀ) · W_linᵀ + b_lin)` with `agg` the
  scatter-add of the gathered rows of `h` (`aggregate`: gather the rows named by the first row of the edge list, negative
  indices wrapped once, and add them into the rows named by its second row). Read at an entry, each host matrix product is
  the sum over the 512 contracted features, a bias row broadcast over the nodes reads the bias at the entry's column, and
  the clamp's zero array reads zero; the reference adds the bias BEFORE the node's own term, the layer function after it:
  one use of commutativity and associativity of addition on the extended reals (`add_right_comm`) joins them
  (`refLayer_eq`). The whole program is then `twoLayer`: the layer function applied to the layer function (`result_eq`).
-/
import proofs.«140693_j80015240725034_1_alg».proof.Proof.Gen.ReferenceIdeal.Run
import proofs.«140693_j80015240725034_1_alg».proof.Proof.Gen.ReferenceIdeal.Read
import proofs.«140693_j80015240725034_1_alg».proof.Proof.LayerSpec
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.GraphLayer

/-- The reference's matrix products all contract the left operand's columns against the right operand's rows. -/
abbrev DR : DotDims S65536x512 S512x512 S65536x512 := dot_S65536x512_S512x512_S65536x512_1_0_0_1_n_n

/-- The edge sources: the first row of the edge list, a negative index wrapped once by the number of nodes. -/
def sources (E : IVec S2x524288 32) : IVec S524288x1 32 :=
  broadcastInDim S524288x1 ![0] bcast_S524288_S524288x1_0 (select (cmpi .slt (shapeCast _ (extractStridedSlice S1x524288 ![0, 0] E slices_S2x524288_S1x524288_0_0) shapeCasts_S1x524288_S524288) (broadcastInDim S524288 ![] bcast_S_S524288 (constantI S_ 32 0#32))) (addi (shapeCast _ (extractStridedSlice S1x524288 ![0, 0] E slices_S2x524288_S1x524288_0_0) shapeCasts_S1x524288_S524288) (broadcastInDim S524288 ![] bcast_S_S524288 (constantI S_ 32 65536#32))) (shapeCast _ (extractStridedSlice S1x524288 ![0, 0] E slices_S2x524288_S1x524288_0_0) shapeCasts_S1x524288_S524288))

/-- The neighbour sums of a node-feature array along the edge list: the source rows gathered, then added into the
    destination rows (the second row of the edge list) of a zero array. -/
def aggregate (E : IVec S2x524288 32) (h : FVec Ideal S65536x512 .f32) :
    FVec Ideal S65536x512 .f32 :=
  Host.scatterAdd scatter_S65536x512_S524288x1_S524288x512_1_0_0_1 (broadcastInDim S65536x512 ![] bcast_S_S65536x512 (constant (F := Ideal) S_ .f32 0x00000000#32)) (broadcastInDim S524288x1 ![0] bcast_S524288_S524288x1_0 (shapeCast _ (extractStridedSlice S1x524288 ![1, 0] E slices_S2x524288_S1x524288_1_0) shapeCasts_S1x524288_S524288)) (Host.gather gather_S65536x512_S524288x1_S524288x512_1_0_n_n_0_1_1512 h (sources E))

/-- A weight matrix with its two axes exchanged. -/
abbrev tr (W : FVec Ideal S512x512 .f32) : FVec Ideal S512x512 .f32 :=
  transpose S512x512 [1, 0] W transposes_S512x512_S512x512_1_0

/-- One layer as the reference spells it. -/
def refLayer (A H : FVec Ideal S65536x512 .f32) (Wrel : FVec Ideal S512x512 .f32)
    (brel : FVec Ideal S512 .f32) (Wroot Wlin : FVec Ideal S512x512 .f32)
    (blin : FVec Ideal S512 .f32) : FVec Ideal S65536x512 .f32 :=
  maximumf (addf (Host.dotGeneral dot_S65536x512_S512x512_S65536x512_1_0_0_1_n_n none (addf (addf (Host.dotGeneral dot_S65536x512_S512x512_S65536x512_1_0_0_1_n_n none A (transpose S512x512 [1, 0] Wrel transposes_S512x512_S512x512_1_0)) (broadcastInDim S65536x512 ![0, 1] bcast_S1x512_S65536x512_0_1 (broadcastInDim S1x512 ![1] bcast_S512_S1x512_1 brel))) (Host.dotGeneral dot_S65536x512_S512x512_S65536x512_1_0_0_1_n_n none H (transpose S512x512 [1, 0] Wroot transposes_S512x512_S512x512_1_0))) (transpose S512x512 [1, 0] Wlin transposes_S512x512_S512x512_1_0)) (broadcastInDim S65536x512 ![0, 1] bcast_S1x512_S65536x512_0_1 (broadcastInDim S1x512 ![1] bcast_S512_S1x512_1 blin))) (broadcastInDim S65536x512 ![] bcast_S_S65536x512 (constant (F := Ideal) S_ .f32 0x00000000#32))

/-! ## The host operations read at an entry -/

/-- A host matrix product at node `r`, feature `q`: the sum over the contracted feature. -/
theorem dot_at {φ₁ φ₂ : FTy} (L : FVec Ideal S65536x512 φ₁) (R : FVec Ideal S512x512 φ₂) (r : Fin 65536) (q : Fin 512) :
    Host.dotGeneral DR none L R (ix2 r q) = ∑ k : Fin 512, L (ix2 r k) * R (ix2 k q) := by
  simp only [Host.dotGeneral]
  rw [Ideal.dotGeneral_apply, ← Equiv.sum_comp (contrEquiv1 DR 512 rfl rfl).symm]
  refine Finset.sum_congr rfl fun k _ => ?_
  have hk := contrEquiv1_symm_val DR 512 rfl rfl k
  have el : DR.lhsIdx (ix2 r q) ((contrEquiv1 DR 512 rfl rfl).symm k) = ix2 r k := funext fun a => Fin.ext (by
    match a with
    | ⟨0, _⟩ => exact Cert.ReferenceIdeal.Read.lhs_main_v15_0 _ _
    | ⟨1, _⟩ => exact (Cert.ReferenceIdeal.Read.lhs_main_v15_1 _ _).trans hk)
  have er : DR.rhsIdx (ix2 r q) ((contrEquiv1 DR 512 rfl rfl).symm k) = ix2 k q := funext fun a => Fin.ext (by
    match a with
    | ⟨0, _⟩ => exact (Cert.ReferenceIdeal.Read.rhs_main_v15_0 _ _).trans hk
    | ⟨1, _⟩ => exact Cert.ReferenceIdeal.Read.rhs_main_v15_1 _ _)
  rw [el, er]

/-- A bias row broadcast over the nodes reads the bias at the entry's column. -/
theorem hbias_at (b : FVec Ideal S512 .f32) (r : Fin 65536) (q : Fin 512) :
    broadcastInDim S65536x512 ![0, 1] bcast_S1x512_S65536x512_0_1 (broadcastInDim S1x512 ![1] bcast_S512_S1x512_1 b) (ix2 r q) = b (ix1 q) :=
  (broadcastInDim_apply _ bcast_S1x512_S65536x512_0_1 _ (ix2 r q) (ix2 (0 : Fin 1) q) (fun a => match a with
    | ⟨0, _⟩ => by show 0 = if (1 : Nat) = 1 then 0 else r.val; rw [if_pos rfl]
    | ⟨1, _⟩ => by show q.val = if (512 : Nat) = 1 then 0 else q.val; rw [if_neg (by decide)])).trans
  (broadcastInDim_apply _ bcast_S512_S1x512_1 b (ix2 (0 : Fin 1) q) (ix1 q) (fun a => match a with
    | ⟨0, _⟩ => by show q.val = if (512 : Nat) = 1 then 0 else q.val; rw [if_neg (by decide)]))

/-- The clamp's array of zeros reads the zero word everywhere. -/
theorem hzero_at (i : S65536x512.Idx) :
    broadcastInDim S65536x512 ![] bcast_S_S65536x512 (constant (F := Ideal) S_ .f32 0x00000000#32) i = Ideal.ofBits .f32 0x00000000#32 :=
  broadcastInDim_apply _ bcast_S_S65536x512 _ i ix0 (fun a => a.elim0)

/-! ## The reference's layer is the layer function -/

theorem refLayer_eq (A H : FVec Ideal S65536x512 .f32) (Wrel : FVec Ideal S512x512 .f32)
    (brel : FVec Ideal S512 .f32) (Wroot Wlin : FVec Ideal S512x512 .f32)
    (blin : FVec Ideal S512 .f32) :
    refLayer A H Wrel brel Wroot Wlin blin = layer A H (tr Wrel) brel (tr Wroot) (tr Wlin) blin := by
  funext i
  obtain ⟨r, q, rfl⟩ : ∃ (r : Fin 65536) (q : Fin 512), i = ix2 r q := ⟨i 0, i 1, eq_ix2 i⟩
  rw [layer_ix2]
  unfold refLayer layerAt
  refine congrArg₂ max (congrArg₂ (· + ·) ?_ (hbias_at blin r q)) (hzero_at _)
  refine (dot_at _ _ r q).trans (Finset.sum_congr rfl fun k _ => congrArg₂ (· * ·) ?_ rfl)
  unfold convAt
  exact (congrArg₂ (· + ·) (congrArg₂ (· + ·) (dot_at _ _ r k) (hbias_at brel r k)) (dot_at _ _ r k)).trans (add_right_comm _ _ _)

/-! ## The whole program -/

/-- Both layers: the second applied to the first's result, each with its own neighbour sums. -/
def twoLayer (E : IVec S2x524288 32) (X : FVec Ideal S65536x512 .f32)
    (W2 : FVec Ideal S512x512 .f32) (b3 : FVec Ideal S512 .f32)
    (W4 W5 : FVec Ideal S512x512 .f32) (b6 : FVec Ideal S512 .f32)
    (W7 : FVec Ideal S512x512 .f32) (b8 : FVec Ideal S512 .f32)
    (W9 W10 : FVec Ideal S512x512 .f32) (b11 : FVec Ideal S512 .f32) : Mat 65536 512 :=
  layer (aggregate E (layer (aggregate E X) X (tr W2) b3 (tr W4) (tr W5) b6)) (layer (aggregate E X) X (tr W2) b3 (tr W4) (tr W5) b6)
    (tr W7) b8 (tr W9) (tr W10) b11

/-- The reference run's result term is its two layers, spelt with `refLayer` and `aggregate`. -/
theorem res_spelt (m : (ℓ : Loc nD τ sig) → Buf (Elt Ideal) ℓ) (c : Dev nD) :
    Cert.ReferenceIdeal.Value.res_main_v51 m c
      = refLayer (aggregate (m ((c.tc : Thread nD τ).loc main_arg1)) (refLayer (aggregate (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))))
          (refLayer (aggregate (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v51 refLayer aggregate sources
  rfl

/-- So the reference run's result is the two-layer function of the arguments. -/
theorem result_eq (m : (ℓ : Loc nD τ sig) → Buf (Elt Ideal) ℓ) (c : Dev nD) :
    Cert.ReferenceIdeal.Value.res_main_v51 m c
      = twoLayer (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_spelt, refLayer_eq, refLayer_eq]
  rfl

end Cert.ReferenceIdeal.RefValue

end
-- ==== Proof.KernelBlock.lean ====
/-
  What one grid point of the kernel stores, read at an index of its 1024 × 512 block.

  The body multiplies the block of neighbour sums and the block of node features by the two resident weight matrices, adds
  the two products and the first bias, multiplies the sum by the third weight matrix, adds the second bias and clamps at
  zero. Every matrix product is, entry by entry, a sum over the 512 contracted features (`matmul_at`); the changes of float
  format and the rank-preserving shape casts are identities on extended reals; a bias row broadcast down the block reads
  the bias at the entry's column. So the stored block is the layer function of the loaded blocks (`pay0_at`, `pay1_at`:
  the two calls' bodies differ by one identity cast).
-/
import proofs.«140693_j80015240725034_1_alg».proof.Proof.Gen.KernelIdeal.Skeleton
import proofs.«140693_j80015240725034_1_alg».proof.Proof.LayerSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.GraphLayer

/-- The body's matrix products all use one contraction: the left operand's columns against the right operand's rows. -/
abbrev DK : DotDims S1024x512 S512x512 S1024x512 := dot_S1024x512_S512x512_S1024x512_1_0_0_1_n_n

/-! ## Which operand entries a product's entry reads -/

theorem dk_lhs0 (i : S1024x512.Idx) (q : DK.contr.Idx) : (DK.lhsIdx i q 0).val = (i 0).val := by
  unfold DotDims.lhsIdx
  rw [dif_neg (show ¬(0 : Fin S1024x512.rank) ∈ DK.lhsBatch by decide), dif_pos (show (0 : Fin S1024x512.rank) ∈ DK.lhsNonContracting by decide)]
  rfl
theorem dk_lhs1 (i : S1024x512.Idx) (q : DK.contr.Idx) : (DK.lhsIdx i q 1).val = (q ⟨0, by decide⟩).val :=
  DK.lhsIdx_val_of_single rfl i q
theorem dk_rhs0 (i : S1024x512.Idx) (q : DK.contr.Idx) : (DK.rhsIdx i q 0).val = (q ⟨0, by decide⟩).val :=
  DK.rhsIdx_val_of_single rfl i q
theorem dk_rhs1 (i : S1024x512.Idx) (q : DK.contr.Idx) : (DK.rhsIdx i q 1).val = (i 1).val := by
  unfold DotDims.rhsIdx
  rw [dif_neg (show ¬(1 : Fin S512x512.rank) ∈ DK.rhsBatch by decide), dif_pos (show (1 : Fin S512x512.rank) ∈ DK.rhsNonContracting by decide)]
  rfl

/-- A product into a zero accumulator, at row `p` and column `q`: the sum over the contracted feature `k` of the left operand
    at `(p, k)` times the right at `(k, q)`. -/
theorem matmul_at {φ₁ φ₂ : FTy} (L : FVec Ideal S1024x512 φ₁) (R : FVec Ideal S512x512 φ₂) (p : Fin 1024) (q : Fin 512) :
    matmul DK none L R (constant (F := Ideal) S1024x512 .f32 0x00000000#32) (ix2 p q) = ∑ k : Fin 512, L (ix2 p k) * R (ix2 k q) := by
  simp only [matmul]
  rw [Ideal.matmul_constant_zero_apply, ← Equiv.sum_comp (contrEquiv1 DK 512 rfl rfl).symm]
  refine Finset.sum_congr rfl fun k _ => ?_
  have hk := contrEquiv1_symm_val DK 512 rfl rfl k
  have el : DK.lhsIdx (ix2 p q) ((contrEquiv1 DK 512 rfl rfl).symm k) = ix2 p k := funext fun a => Fin.ext (by
    match a with
    | ⟨0, _⟩ => exact dk_lhs0 _ _
    | ⟨1, _⟩ => exact (dk_lhs1 _ _).trans hk)
  have er : DK.rhsIdx (ix2 p q) ((contrEquiv1 DK 512 rfl rfl).symm k) = ix2 k q := funext fun a => Fin.ext (by
    match a with
    | ⟨0, _⟩ => exact (dk_rhs0 _ _).trans hk
    | ⟨1, _⟩ => exact dk_rhs1 _ _)
  rw [el, er]

/-! ## The stored block is the layer function of the loaded blocks -/

/-- A bias row, given a unit leading axis and broadcast down the block, reads the bias at the entry's column. -/
theorem bias_at (b : FVec Ideal S512 .f32) (p : Fin 1024) (q : Fin 512) :
    broadcastTo S1024x512 (shapeCast S1x512 b shapeCasts_S512_S1x512) broadcasts_S1x512_S1024x512 (ix2 p q) = b (ix1 q) :=
  (broadcastTo_1b_ab_apply _ _ p q).trans (shapeCast_a_1a_apply b _ 0 q)

/-- The first call's body. -/
theorem pay0_at (v0 v3 : Vec Ideal S1024x512 .f32) (v5 v8 : Vec Ideal S512x512 .bf16) (v12 : Vec Ideal S512 .f32)
    (v17 : Vec Ideal S512x512 .bf16) (v20 : Vec Ideal S512 .f32) (p : Fin 1024) (q : Fin 512) :
    k0_pay1 (F := Ideal) v0 v3 v5 v8 v12 v17 v20 (ix2 p q) = layerAt v0 v3 v5 v12 v8 v17 v20 p q := by
  unfold k0_pay1 layerAt
  refine congrArg₂ max (congrArg₂ (· + ·) ?_ (bias_at v20 p q)) rfl
  refine (matmul_at _ _ p q).trans (Finset.sum_congr rfl fun k _ => congrArg₂ (· * ·) ?_ (congrFun (shapeCast_self v17 _) (ix2 k q)))
  unfold convAt
  refine congrArg₂ (· + ·) (congrArg₂ (· + ·) ?_ ?_) (bias_at v12 p k)
  · exact (matmul_at _ _ p k).trans (Finset.sum_congr rfl fun j _ =>
      congrArg₂ (· * ·) (congrFun (shapeCast_self v0 _) (ix2 p j)) (congrFun (shapeCast_self v5 _) (ix2 j k)))
  · exact (matmul_at _ _ p k).trans (Finset.sum_congr rfl fun j _ =>
      congrArg₂ (· * ·) rfl (congrFun (shapeCast_self v8 _) (ix2 j k)))

/-- The second call's body: the same, with one more identity cast on the node-feature block. -/
theorem pay1_at (v0 v3 : Vec Ideal S1024x512 .f32) (v6 v9 : Vec Ideal S512x512 .bf16) (v13 : Vec Ideal S512 .f32)
    (v18 : Vec Ideal S512x512 .bf16) (v21 : Vec Ideal S512 .f32) (p : Fin 1024) (q : Fin 512) :
    k1_pay1 (F := Ideal) v0 v3 v6 v9 v13 v18 v21 (ix2 p q) = layerAt v0 v3 v6 v13 v9 v18 v21 p q := by
  unfold k1_pay1 layerAt
  refine congrArg₂ max (congrArg₂ (· + ·) ?_ (bias_at v21 p q)) rfl
  refine (matmul_at _ _ p q).trans (Finset.sum_congr rfl fun k _ => congrArg₂ (· * ·) ?_ (congrFun (shapeCast_self v18 _) (ix2 k q)))
  unfold convAt
  refine congrArg₂ (· + ·) (congrArg₂ (· + ·) ?_ ?_) (bias_at v13 p k)
  · exact (matmul_at _ _ p k).trans (Finset.sum_congr rfl fun j _ =>
      congrArg₂ (· * ·) (congrFun (shapeCast_self v0 _) (ix2 p j)) (congrFun (shapeCast_self v6 _) (ix2 j k)))
  · exact (matmul_at _ _ p k).trans (Finset.sum_congr rfl fun j _ =>
      congrArg₂ (· * ·) (congrFun (shapeCast_self v3 _) (ix2 p j)) (congrFun (shapeCast_self v9 _) (ix2 j k)))

end Cert.KernelIdeal.Hand

end
-- ==== Proof.KernelRegion.lean ====
/-
  From blocks to arrays: after each of the two kernel calls, the call's result array is the layer function of the arrays the
  call found on entry.

  Both calls run over 64 grid points. At point `t` the two node-array windows hold rows `1024 t … 1024 t + 1023` of their
  arrays, the five weight and bias windows hold their whole arrays, and the body's stored block — the layer function of the
  loaded blocks (the kernel-block module) — is written back to rows `1024 t … 1024 t + 1023` of the result. Since an entry of
  the layer function reads its own row of the node arrays only, the stored block is block `t` of the layer function of the
  whole arrays; the 64 blocks tile the 65536 rows, so the result array is that function everywhere. Stated for any contents
  `V` of the buffers at the call's entry.
-/
import proofs.«140693_j80015240725034_1_alg».proof.Proof.Gen.KernelIdeal.Frame
import proofs.«140693_j80015240725034_1_alg».proof.Proof.KernelBlock
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Call 0: its windows, block by block -/

/-- The index maps of call 0, decided over its 64 grid points: the two node-array windows and the output window sit on row
    block `t` at point `t`; the weight and bias windows stay on their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of the neighbour-sum block at point `t` is row `1024 t + p` of the array. -/
theorem nbr_blk0 (c : Dev nD) (t : Fin cfg0.N) (p : Fin 1024) (j : Fin 512) (row : Fin 65536) (hrow : row.val = t.val * 1024 + p.val) :
    (iblk0 V c 0 t : Vec Ideal S1024x512 .f32) (ix2 p j) = (V c main_v13 : Mat 65536 512) (ix2 row j) := by
  obtain ⟨e00, e01, -⟩ := idx_facts0 t
  unfold iblk0
  rw [View.read_apply]
  show (V c main_v13 : Mat 65536 512) _ = (V c main_v13 : Mat 65536 512) _
  refine congrArg _ (funext fun a => Fin.ext ?_)
  match a with
  | ⟨0, _⟩ => show win0_0.index t (0 : Fin 2) * 1024 + 1 * p.val = row.val; rw [e00, hrow]; omega
  | ⟨1, _⟩ => show win0_0.index t (1 : Fin 2) * 512 + 1 * j.val = j.val; rw [e01]; omega

/-- Row `p` of the node-feature block at point `t` is row `1024 t + p` of the array. -/
theorem node_blk0 (c : Dev nD) (t : Fin cfg0.N) (p : Fin 1024) (j : Fin 512) (row : Fin 65536) (hrow : row.val = t.val * 1024 + p.val) :
    (iblk0 V c 1 t : Vec Ideal S1024x512 .f32) (ix2 p j) = (V c main_arg0 : Mat 65536 512) (ix2 row j) := by
  obtain ⟨-, -, e10, e11, -⟩ := idx_facts0 t
  unfold iblk0
  rw [View.read_apply]
  show (V c main_arg0 : Mat 65536 512) _ = (V c main_arg0 : Mat 65536 512) _
  refine congrArg _ (funext fun a => Fin.ext ?_)
  match a with
  | ⟨0, _⟩ => show win0_1.index t (0 : Fin 2) * 1024 + 1 * p.val = row.val; rw [e10, hrow]; omega
  | ⟨1, _⟩ => show win0_1.index t (1 : Fin 2) * 512 + 1 * j.val = j.val; rw [e11]; omega

/-- A weight window's one block is the whole weight array (windows 2, 4 and 5). -/
theorem wgt2_blk0 (c : Dev nD) (t : Fin cfg0.N) (j k : Fin 512) :
    (iblk0 V c 2 t : Vec Ideal S512x512 .bf16) (ix2 j k) = (V c main_v15 : Mat 512 512) (ix2 j k) := by
  obtain ⟨-, -, -, -, e20, e21, -⟩ := idx_facts0 t
  unfold iblk0
  rw [View.read_apply]
  show (V c main_v15 : Mat 512 512) _ = (V c main_v15 : Mat 512 512) _
  refine congrArg _ (funext fun a => Fin.ext ?_)
  match a with
  | ⟨0, _⟩ => show win0_2.index t (0 : Fin 2) * 512 + 1 * j.val = j.val; rw [e20]; omega
  | ⟨1, _⟩ => show win0_2.index t (1 : Fin 2) * 512 + 1 * k.val = k.val; rw [e21]; omega
theorem wgt4_blk0 (c : Dev nD) (t : Fin cfg0.N) (j k : Fin 512) :
    (iblk0 V c 4 t : Vec Ideal S512x512 .bf16) (ix2 j k) = (V c main_v17 : Mat 512 512) (ix2 j k) := by
  obtain ⟨-, -, -, -, -, -, -, e40, e41, -⟩ := idx_facts0 t
  unfold iblk0
  rw [View.read_apply]
  show (V c main_v17 : Mat 512 512) _ = (V c main_v17 : Mat 512 512) _
  refine congrArg _ (funext fun a => Fin.ext ?_)
  match a with
  | ⟨0, _⟩ => show win0_4.index t (0 : Fin 2) * 512 + 1 * j.val = j.val; rw [e40]; omega
  | ⟨1, _⟩ => show win0_4.index t (1 : Fin 2) * 512 + 1 * k.val = k.val; rw [e41]; omega
theorem wgt5_blk0 (c : Dev nD) (t : Fin cfg0.N) (j k : Fin 512) :
    (iblk0 V c 5 t : Vec Ideal S512x512 .bf16) (ix2 j k) = (V c main_v19 : Mat 512 512) (ix2 j k) := by
  obtain ⟨-, -, -, -, -, -, -, -, -, e50, e51, -⟩ := idx_facts0 t
  unfold iblk0
  rw [View.read_apply]
  show (V c main_v19 : Mat 512 512) _ = (V c main_v19 : Mat 512 512) _
  refine congrArg _ (funext fun a => Fin.ext ?_)
  match a with
  | ⟨0, _⟩ => show win0_5.index t (0 : Fin 2) * 512 + 1 * j.val = j.val; rw [e50]; omega
  | ⟨1, _⟩ => show win0_5.index t (1 : Fin 2) * 512 + 1 * k.val = k.val; rw [e51]; omega

/-- A bias window's one block is the whole bias array (windows 3 and 6). -/
theorem bias3_blk0 (c : Dev nD) (t : Fin cfg0.N) (k : Fin 512) :
    (iblk0 V c 3 t : Vec Ideal S512 .f32) (ix1 k) = (V c main_arg3 : Row 512) (ix1 k) := by
  obtain ⟨-, -, -, -, -, -, e30, -⟩ := idx_facts0 t
  unfold iblk0
  rw [View.read_apply]
  show (V c main_arg3 : Row 512) _ = (V c main_arg3 : Row 512) _
  refine congrArg _ (funext fun a => Fin.ext ?_)
  match a with
  | ⟨0, _⟩ => show win0_3.index t (0 : Fin 1) * 512 + 1 * k.val = k.val; rw [e30]; omega
theorem bias6_blk0 (c : Dev nD) (t : Fin cfg0.N) (k : Fin 512) :
    (iblk0 V c 6 t : Vec Ideal S512 .f32) (ix1 k) = (V c main_arg6 : Row 512) (ix1 k) := by
  obtain ⟨-, -, -, -, -, -, -, -, -, -, -, e60, -⟩ := idx_facts0 t
  unfold iblk0
  rw [View.read_apply]
  show (V c main_arg6 : Row 512) _ = (V c main_arg6 : Row 512) _
  refine congrArg _ (funext fun a => Fin.ext ?_)
  match a with
  | ⟨0, _⟩ => show win0_6.index t (0 : Fin 1) * 512 + 1 * k.val = k.val; rw [e60]; omega

/-- The layer function of the arrays call 0 finds on entry. -/
abbrev layerOf0 (c : Dev nD) : Mat 65536 512 :=
  layer (V c main_v13) (V c main_arg0) (V c main_v15) (V c main_arg3) (V c main_v17) (V c main_v19) (V c main_arg6)

/-- What point `t` of call 0 writes back is block `t` of the layer function of the entry arrays. -/
theorem flushed0_eq (c : Dev nD) (t : Fin cfg0.N) :
    (dat0 (F := Ideal) V c).flushed 7 t = ((cfg0.win 7).blk t).view.read (Elt Ideal) (layerOf0 V c) := by
  show (cfg0.win 7).cut (grid0.coords t) ((dat0 (F := Ideal) V c).after 7 t) = _
  rw [after0_7]
  unfold out0_7
  rw [View.canon_unit_zero hz2]
  simp only [View.ld_unit_zero (S := S1024x512) hz2, View.ld_unit_zero (S := S512x512) hz2, View.ld_unit_zero (S := S512) hz1]
  obtain ⟨-, -, -, -, -, -, -, -, -, -, -, -, e70, e71⟩ := idx_facts0 t
  funext j
  obtain ⟨p, q, rfl⟩ : ∃ (p : Fin 1024) (q : Fin 512), j = ix2 p q := ⟨j 0, j 1, eq_ix2 j⟩
  have hN : cfg0.N = 64 := N_0
  have hrow : t.val * 1024 + p.val < 65536 := by have := t.isLt; have := p.isLt; omega
  have hemb : ((cfg0.win 7).blk t).view.emb (ix2 p q) = ix2 (⟨t.val * 1024 + p.val, hrow⟩ : Fin 65536) q :=
    funext fun a => Fin.ext (by
      match a with
      | ⟨0, _⟩ => show win0_7.index t (0 : Fin 2) * 1024 + 1 * p.val = t.val * 1024 + p.val; rw [e70]; omega
      | ⟨1, _⟩ => show win0_7.index t (1 : Fin 2) * 512 + 1 * q.val = q.val; rw [e71]; omega)
  show k0_pay1 (F := Ideal) (iblk0 V c 0 t) (iblk0 V c 1 t) (iblk0 V c 2 t) (iblk0 V c 4 t) (iblk0 V c 3 t) (iblk0 V c 5 t) (iblk0 V c 6 t) (ix2 p q)
    = layerOf0 V c (((cfg0.win 7).blk t).view.emb (ix2 p q))
  rw [hemb]
  exact (pay0_at _ _ _ _ _ _ _ p q).trans (layerAt_congr _ _ _ _ _ _ _ _ _ _ _ _ _ _ p ⟨t.val * 1024 + p.val, hrow⟩
    (fun j => nbr_blk0 V c t p j _ rfl) (fun j => node_blk0 V c t p j _ rfl)
    (fun j k => wgt2_blk0 V c t j k) (fun k => bias3_blk0 V c t k) (fun j k => wgt4_blk0 V c t j k)
    (fun j k => wgt5_blk0 V c t j k) (fun k => bias6_blk0 V c t k) q)

/-- An entry of the result array lies in point `t`'s block iff each coordinate lies in the block's range. -/
theorem mem_blk0 (t : Fin cfg0.N) (i : S65536x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v20).slice (win0_7.rect t)).set ↔ _
  rw [View.set_slice_whole, Rect.mem_set_unit]
  exact Iff.rfl

/-- The 64 row blocks fill the result array: row `r` lies in the block of point `r / 1024`. -/
theorem cover0 (i : S65536x512.Idx) : ∃ t : Fin cfg0.N, (cfg0.win 7).flush t = true ∧ i ∈ ((cfg0.win 7).blk t).view.set := by
  have hN : cfg0.N = 64 := N_0
  have hi0 : (i 0).val < 65536 := (i 0).isLt
  have hi1 : (i 1).val < 512 := (i 1).isLt
  have ht : (i 0).val / 1024 < cfg0.N := by rw [hN]; omega
  obtain ⟨-, -, -, -, -, -, -, -, -, -, -, -, e70, e71⟩ := idx_facts0 ⟨(i 0).val / 1024, ht⟩
  refine ⟨⟨(i 0).val / 1024, ht⟩, flush0_7 _, ?_⟩
  rw [mem_blk0]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e70]; show (i 0).val / 1024 * 1024 ≤ (i 0).val ∧ (i 0).val < (i 0).val / 1024 * 1024 + 1024; omega
  | ⟨1, _⟩ =>
    show win0_7.index ⟨(i 0).val / 1024, ht⟩ (1 : Fin 2) * 512 ≤ (i 1).val ∧ (i 1).val < win0_7.index ⟨(i 0).val / 1024, ht⟩ (1 : Fin 2) * 512 + 512
    rw [e71]; omega

/-- After call 0 its result array is the layer function of the arrays the call found on entry. -/
theorem final0 (c : Dev nD) : (dat0 (F := Ideal) V c).arrAt 7 cfg0.N = layerOf0 V c :=
  (dat0 (F := Ideal) V c).arrAt_eq_of_cover 7 (layerOf0 V c) (fun t _ => flushed0_eq V c t) cover0

/-! ## Call 1: its windows, block by block -/

/-- The index maps of call 1, decided over its 64 grid points: the two node-array windows and the output window sit on row
    block `t` at point `t`; the weight and bias windows stay on their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of the neighbour-sum block at point `t` is row `1024 t + p` of the array. -/
theorem nbr_blk1 (c : Dev nD) (t : Fin cfg1.N) (p : Fin 1024) (j : Fin 512) (row : Fin 65536) (hrow : row.val = t.val * 1024 + p.val) :
    (iblk1 V c 0 t : Vec Ideal S1024x512 .f32) (ix2 p j) = (V c main_v30 : Mat 65536 512) (ix2 row j) := by
  obtain ⟨e00, e01, -⟩ := idx_facts1 t
  unfold iblk1
  rw [View.read_apply]
  show (V c main_v30 : Mat 65536 512) _ = (V c main_v30 : Mat 65536 512) _
  refine congrArg _ (funext fun a => Fin.ext ?_)
  match a with
  | ⟨0, _⟩ => show win1_0.index t (0 : Fin 2) * 1024 + 1 * p.val = row.val; rw [e00, hrow]; omega
  | ⟨1, _⟩ => show win1_0.index t (1 : Fin 2) * 512 + 1 * j.val = j.val; rw [e01]; omega

/-- Row `p` of the node-feature block at point `t` is row `1024 t + p` of the array. -/
theorem node_blk1 (c : Dev nD) (t : Fin cfg1.N) (p : Fin 1024) (j : Fin 512) (row : Fin 65536) (hrow : row.val = t.val * 1024 + p.val) :
    (iblk1 V c 1 t : Vec Ideal S1024x512 .f32) (ix2 p j) = (V c main_v20 : Mat 65536 512) (ix2 row j) := by
  obtain ⟨-, -, e10, e11, -⟩ := idx_facts1 t
  unfold iblk1
  rw [View.read_apply]
  show (V c main_v20 : Mat 65536 512) _ = (V c main_v20 : Mat 65536 512) _
  refine congrArg _ (funext fun a => Fin.ext ?_)
  match a with
  | ⟨0, _⟩ => show win1_1.index t (0 : Fin 2) * 1024 + 1 * p.val = row.val; rw [e10, hrow]; omega
  | ⟨1, _⟩ => show win1_1.index t (1 : Fin 2) * 512 + 1 * j.val = j.val; rw [e11]; omega

/-- A weight window's one block is the whole weight array (windows 2, 4 and 5). -/
theorem wgt2_blk1 (c : Dev nD) (t : Fin cfg1.N) (j k : Fin 512) :
    (iblk1 V c 2 t : Vec Ideal S512x512 .bf16) (ix2 j k) = (V c main_v32 : Mat 512 512) (ix2 j k) := by
  obtain ⟨-, -, -, -, e20, e21, -⟩ := idx_facts1 t
  unfold iblk1
  rw [View.read_apply]
  show (V c main_v32 : Mat 512 512) _ = (V c main_v32 : Mat 512 512) _
  refine congrArg _ (funext fun a => Fin.ext ?_)
  match a with
  | ⟨0, _⟩ => show win1_2.index t (0 : Fin 2) * 512 + 1 * j.val = j.val; rw [e20]; omega
  | ⟨1, _⟩ => show win1_2.index t (1 : Fin 2) * 512 + 1 * k.val = k.val; rw [e21]; omega
theorem wgt4_blk1 (c : Dev nD) (t : Fin cfg1.N) (j k : Fin 512) :
    (iblk1 V c 4 t : Vec Ideal S512x512 .bf16) (ix2 j k) = (V c main_v34 : Mat 512 512) (ix2 j k) := by
  obtain ⟨-, -, -, -, -, -, -, e40, e41, -⟩ := idx_facts1 t
  unfold iblk1
  rw [View.read_apply]
  show (V c main_v34 : Mat 512 512) _ = (V c main_v34 : Mat 512 512) _
  refine congrArg _ (funext fun a => Fin.ext ?_)
  match a with
  | ⟨0, _⟩ => show win1_4.index t (0 : Fin 2) * 512 + 1 * j.val = j.val; rw [e40]; omega
  | ⟨1, _⟩ => show win1_4.index t (1 : Fin 2) * 512 + 1 * k.val = k.val; rw [e41]; omega
theorem wgt5_blk1 (c : Dev nD) (t : Fin cfg1.N) (j k : Fin 512) :
    (iblk1 V c 5 t : Vec Ideal S512x512 .bf16) (ix2 j k) = (V c main_v36 : Mat 512 512) (ix2 j k) := by
  obtain ⟨-, -, -, -, -, -, -, -, -, e50, e51, -⟩ := idx_facts1 t
  unfold iblk1
  rw [View.read_apply]
  show (V c main_v36 : Mat 512 512) _ = (V c main_v36 : Mat 512 512) _
  refine congrArg _ (funext fun a => Fin.ext ?_)
  match a with
  | ⟨0, _⟩ => show win1_5.index t (0 : Fin 2) * 512 + 1 * j.val = j.val; rw [e50]; omega
  | ⟨1, _⟩ => show win1_5.index t (1 : Fin 2) * 512 + 1 * k.val = k.val; rw [e51]; omega

/-- A bias window's one block is the whole bias array (windows 3 and 6). -/
theorem bias3_blk1 (c : Dev nD) (t : Fin cfg1.N) (k : Fin 512) :
    (iblk1 V c 3 t : Vec Ideal S512 .f32) (ix1 k) = (V c main_arg8 : Row 512) (ix1 k) := by
  obtain ⟨-, -, -, -, -, -, e30, -⟩ := idx_facts1 t
  unfold iblk1
  rw [View.read_apply]
  show (V c main_arg8 : Row 512) _ = (V c main_arg8 : Row 512) _
  refine congrArg _ (funext fun a => Fin.ext ?_)
  match a with
  | ⟨0, _⟩ => show win1_3.index t (0 : Fin 1) * 512 + 1 * k.val = k.val; rw [e30]; omega
theorem bias6_blk1 (c : Dev nD) (t : Fin cfg1.N) (k : Fin 512) :
    (iblk1 V c 6 t : Vec Ideal S512 .f32) (ix1 k) = (V c main_arg11 : Row 512) (ix1 k) := by
  obtain ⟨-, -, -, -, -, -, -, -, -, -, -, e60, -⟩ := idx_facts1 t
  unfold iblk1
  rw [View.read_apply]
  show (V c main_arg11 : Row 512) _ = (V c main_arg11 : Row 512) _
  refine congrArg _ (funext fun a => Fin.ext ?_)
  match a with
  | ⟨0, _⟩ => show win1_6.index t (0 : Fin 1) * 512 + 1 * k.val = k.val; rw [e60]; omega

/-- The layer function of the arrays call 1 finds on entry. -/
abbrev layerOf1 (c : Dev nD) : Mat 65536 512 :=
  layer (V c main_v30) (V c main_v20) (V c main_v32) (V c main_arg8) (V c main_v34) (V c main_v36) (V c main_arg11)

/-- What point `t` of call 1 writes back is block `t` of the layer function of the entry arrays. -/
theorem flushed1_eq (c : Dev nD) (t : Fin cfg1.N) :
    (dat1 (F := Ideal) V c).flushed 7 t = ((cfg1.win 7).blk t).view.read (Elt Ideal) (layerOf1 V c) := by
  show (cfg1.win 7).cut (grid1.coords t) ((dat1 (F := Ideal) V c).after 7 t) = _
  rw [after1_7]
  unfold out1_7
  rw [View.canon_unit_zero hz2]
  simp only [View.ld_unit_zero (S := S1024x512) hz2, View.ld_unit_zero (S := S512x512) hz2, View.ld_unit_zero (S := S512) hz1]
  obtain ⟨-, -, -, -, -, -, -, -, -, -, -, -, e70, e71⟩ := idx_facts1 t
  funext j
  obtain ⟨p, q, rfl⟩ : ∃ (p : Fin 1024) (q : Fin 512), j = ix2 p q := ⟨j 0, j 1, eq_ix2 j⟩
  have hN : cfg1.N = 64 := N_1
  have hrow : t.val * 1024 + p.val < 65536 := by have := t.isLt; have := p.isLt; omega
  have hemb : ((cfg1.win 7).blk t).view.emb (ix2 p q) = ix2 (⟨t.val * 1024 + p.val, hrow⟩ : Fin 65536) q :=
    funext fun a => Fin.ext (by
      match a with
      | ⟨0, _⟩ => show win1_7.index t (0 : Fin 2) * 1024 + 1 * p.val = t.val * 1024 + p.val; rw [e70]; omega
      | ⟨1, _⟩ => show win1_7.index t (1 : Fin 2) * 512 + 1 * q.val = q.val; rw [e71]; omega)
  show k1_pay1 (F := Ideal) (iblk1 V c 0 t) (iblk1 V c 1 t) (iblk1 V c 2 t) (iblk1 V c 4 t) (iblk1 V c 3 t) (iblk1 V c 5 t) (iblk1 V c 6 t) (ix2 p q)
    = layerOf1 V c (((cfg1.win 7).blk t).view.emb (ix2 p q))
  rw [hemb]
  exact (pay1_at _ _ _ _ _ _ _ p q).trans (layerAt_congr _ _ _ _ _ _ _ _ _ _ _ _ _ _ p ⟨t.val * 1024 + p.val, hrow⟩
    (fun j => nbr_blk1 V c t p j _ rfl) (fun j => node_blk1 V c t p j _ rfl)
    (fun j k => wgt2_blk1 V c t j k) (fun k => bias3_blk1 V c t k) (fun j k => wgt4_blk1 V c t j k)
    (fun j k => wgt5_blk1 V c t j k) (fun k => bias6_blk1 V c t k) q)

/-- An entry of the result array lies in point `t`'s block iff each coordinate lies in the block's range. -/
theorem mem_blk1 (t : Fin cfg1.N) (i : S65536x512.Idx) :
    i ∈ ((cfg1.win 7).blk t).view.set ↔ ∀ a : Fin 2, win1_7.index t a * S1024x512.size a ≤ (i a).val ∧ (i a).val < win1_7.index t a * S1024x512.size a + S1024x512.size a := by
  show i ∈ ((View.whole main_v37).slice (win1_7.rect t)).set ↔ _
  rw [View.set_slice_whole, Rect.mem_set_unit]
  exact Iff.rfl

/-- The 64 row blocks fill the result array: row `r` lies in the block of point `r / 1024`. -/
theorem cover1 (i : S65536x512.Idx) : ∃ t : Fin cfg1.N, (cfg1.win 7).flush t = true ∧ i ∈ ((cfg1.win 7).blk t).view.set := by
  have hN : cfg1.N = 64 := N_1
  have hi0 : (i 0).val < 65536 := (i 0).isLt
  have hi1 : (i 1).val < 512 := (i 1).isLt
  have ht : (i 0).val / 1024 < cfg1.N := by rw [hN]; omega
  obtain ⟨-, -, -, -, -, -, -, -, -, -, -, -, e70, e71⟩ := idx_facts1 ⟨(i 0).val / 1024, ht⟩
  refine ⟨⟨(i 0).val / 1024, ht⟩, flush1_7 _, ?_⟩
  rw [mem_blk1]
  intro a
  match a with
  | ⟨0, _⟩ =>
    show win1_7.index ⟨(i 0).val / 1024, ht⟩ (0 : Fin 2) * 1024 ≤ (i 0).val ∧ (i 0).val < win1_7.index ⟨(i 0).val / 1024, ht⟩ (0 : Fin 2) * 1024 + 1024
    rw [e70]; show (i 0).val / 1024 * 1024 ≤ (i 0).val ∧ (i 0).val < (i 0).val / 1024 * 1024 + 1024; omega
  | ⟨1, _⟩ =>
    show win1_7.index ⟨(i 0).val / 1024, ht⟩ (1 : Fin 2) * 512 ≤ (i 1).val ∧ (i 1).val < win1_7.index ⟨(i 0).val / 1024, ht⟩ (1 : Fin 2) * 512 + 512
    rw [e71]; omega

/-- After call 1 its result array is the layer function of the arrays the call found on entry. -/
theorem final1 (c : Dev nD) : (dat1 (F := Ideal) V c).arrAt 7 cfg1.N = layerOf1 V c :=
  (dat1 (F := Ideal) V c).arrAt_eq_of_cover 7 (layerOf1 V c) (fun t _ => flushed1_eq V c t) cover1

end Cert.KernelIdeal.Hand

end
-- ==== Proof.KernelHost.lean ====
/-
  The kernel program between its calls: what the host operations leave in the buffers the two kernel calls read, and so
  the result buffer after the second call as the two-layer function of the arguments.

  Before the first call the host gathers and scatter-adds the input features along the edge list (the same operations, on
  the same words, as the reference's `aggregate`) and transposes the three first-layer weight matrices (the change of float
  format that follows is the identity on extended reals). The first call leaves the layer function of these in its result
  buffer (the region module). Between the calls the host aggregates THAT buffer along the same edge list — it reuses the
  source and destination index arrays computed before the first call, which the first call does not touch — and transposes
  the second-layer weights; the second call leaves the layer function of these. No host operation and no call writes an
  argument.
-/
import proofs.«140693_j80015240725034_1_alg».proof.Proof.KernelRegion
import proofs.«140693_j80015240725034_1_alg».proof.Proof.RefLayer
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.GraphLayer
open Cert.ReferenceIdeal.RefValue (aggregate tr twoLayer)

variable (m : (ℓ : Loc nD τ sig) → Buf (Elt Ideal) ℓ) (ρ : Dev nD → PrngReg)

/-! ## On entry to the first call -/

theorem entry0_nbr (c : Dev nD) : V1 m ρ c main_v13 = aggregate (m ((c : Thread nD τ).loc main_arg1)) (m ((c : Thread nD τ).loc main_arg0)) := by
  show StableHlo.after hostOps0 (W0 m ρ c) (Proc.devRef .tc main_v13) = _
  after_results
  rfl
theorem entry0_node (c : Dev nD) : V1 m ρ c main_arg0 = (m ((c : Thread nD τ).loc main_arg0)) := by
  show StableHlo.after hostOps0 (W0 m ρ c) (Proc.devRef .tc main_arg0) = _
  after_results <;> rfl
theorem entry0_wrel (c : Dev nD) : V1 m ρ c main_v15 = tr (m ((c : Thread nD τ).loc main_arg2)) := by
  show StableHlo.after hostOps0 (W0 m ρ c) (Proc.devRef .tc main_v15) = _
  after_results
  rfl
theorem entry0_brel (c : Dev nD) : V1 m ρ c main_arg3 = (m ((c : Thread nD τ).loc main_arg3)) := by
  show StableHlo.after hostOps0 (W0 m ρ c) (Proc.devRef .tc main_arg3) = _
  after_results <;> rfl
theorem entry0_wroot (c : Dev nD) : V1 m ρ c main_v17 = tr (m ((c : Thread nD τ).loc main_arg4)) := by
  show StableHlo.after hostOps0 (W0 m ρ c) (Proc.devRef .tc main_v17) = _
  after_results
  rfl
theorem entry0_wlin (c : Dev nD) : V1 m ρ c main_v19 = tr (m ((c : Thread nD τ).loc main_arg5)) := by
  show StableHlo.after hostOps0 (W0 m ρ c) (Proc.devRef .tc main_v19) = _
  after_results
  rfl
theorem entry0_blin (c : Dev nD) : V1 m ρ c main_arg6 = (m ((c : Thread nD τ).loc main_arg6)) := by
  show StableHlo.after hostOps0 (W0 m ρ c) (Proc.devRef .tc main_arg6) = _
  after_results <;> rfl

/-- After the first call its result buffer holds the first layer of the arguments. -/
theorem first_layer (c : Dev nD) :
    W2 m ρ c (Proc.devRef .tc main_v20)
      = layer (aggregate (m ((c : Thread nD τ).loc main_arg1)) (m ((c : Thread nD τ).loc main_arg0))) (m ((c : Thread nD τ).loc main_arg0)) (tr (m ((c : Thread nD τ).loc main_arg2))) (m ((c : Thread nD τ).loc main_arg3)) (tr (m ((c : Thread nD τ).loc main_arg4))) (tr (m ((c : Thread nD τ).loc main_arg5))) (m ((c : Thread nD τ).loc main_arg6)) := by
  refine (W2_arr m ρ c 7).trans ((final0 (V1 m ρ) c).trans ?_)
  show layer (V1 m ρ c main_v13) (V1 m ρ c main_arg0) (V1 m ρ c main_v15) (V1 m ρ c main_arg3) (V1 m ρ c main_v17) (V1 m ρ c main_v19) (V1 m ρ c main_arg6) = _
  rw [entry0_nbr m ρ c, entry0_node m ρ c, entry0_wrel m ρ c, entry0_brel m ρ c, entry0_wroot m ρ c, entry0_wlin m ρ c, entry0_blin m ρ c]

/-! ## What the first call leaves alone -/

/-- The edge sources' index array, computed before the first call and not one of its windows' arrays. -/
theorem kept_src (c : Dev nD) : W2 m ρ c (Proc.devRef .tc main_v1)
    = shapeCast _ (extractStridedSlice S1x524288 ![0, 0] (m ((c : Thread nD τ).loc main_arg1)) slices_S2x524288_S1x524288_0_0) shapeCasts_S1x524288_S524288 :=
  (W2_of_ne m ρ c main_v1 (by decide)).trans (by
    show StableHlo.after hostOps0 (W0 m ρ c) (Proc.devRef .tc main_v1) = _
    after_results
    rfl)
/-- The edge destinations' index array likewise. -/
theorem kept_dst (c : Dev nD) : W2 m ρ c (Proc.devRef .tc main_v3)
    = shapeCast _ (extractStridedSlice S1x524288 ![1, 0] (m ((c : Thread nD τ).loc main_arg1)) slices_S2x524288_S1x524288_1_0) shapeCasts_S1x524288_S524288 :=
  (W2_of_ne m ρ c main_v3 (by decide)).trans (by
    show StableHlo.after hostOps0 (W0 m ρ c) (Proc.devRef .tc main_v3) = _
    after_results
    rfl)
/-- The second layer's parameters are arguments the first stretch and the first call do not write. -/
theorem kept_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)
theorem kept_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)
theorem kept_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)
theorem kept_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results <;> rfl)
theorem kept_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results <;> rfl)

/-! ## On entry to the second call -/

theorem entry1_nbr (c : Dev nD) : V3 m ρ c main_v30 = aggregate (m ((c : Thread nD τ).loc main_arg1)) (W2 m ρ c (Proc.devRef .tc main_v20)) := by
  show StableHlo.after hostOps1 (W2 m ρ c) (Proc.devRef .tc main_v30) = _
  after_results
  rw [kept_src m ρ c, kept_dst m ρ c]
  rfl
theorem entry1_node (c : Dev nD) : V3 m ρ c main_v20 = W2 m ρ c (Proc.devRef .tc main_v20) := by
  show StableHlo.after hostOps1 (W2 m ρ c) (Proc.devRef .tc main_v20) = _
  after_results <;> rfl
theorem entry1_wrel (c : Dev nD) : V3 m ρ c main_v32 = tr (m ((c : Thread nD τ).loc main_arg7)) := by
  show StableHlo.after hostOps1 (W2 m ρ c) (Proc.devRef .tc main_v32) = _
  after_results
  rw [kept_arg7 m ρ c]
  rfl
theorem entry1_brel (c : Dev nD) : V3 m ρ c main_arg8 = (m ((c : Thread nD τ).loc main_arg8)) := by
  show StableHlo.after hostOps1 (W2 m ρ c) (Proc.devRef .tc main_arg8) = _
  after_results
  exact kept_arg8 m ρ c
theorem entry1_wroot (c : Dev nD) : V3 m ρ c main_v34 = tr (m ((c : Thread nD τ).loc main_arg9)) := by
  show StableHlo.after hostOps1 (W2 m ρ c) (Proc.devRef .tc main_v34) = _
  after_results
  rw [kept_arg9 m ρ c]
  rfl
theorem entry1_wlin (c : Dev nD) : V3 m ρ c main_v36 = tr (m ((c : Thread nD τ).loc main_arg10)) := by
  show StableHlo.after hostOps1 (W2 m ρ c) (Proc.devRef .tc main_v36) = _
  after_results
  rw [kept_arg10 m ρ c]
  rfl
theorem entry1_blin (c : Dev nD) : V3 m ρ c main_arg11 = (m ((c : Thread nD τ).loc main_arg11)) := by
  show StableHlo.after hostOps1 (W2 m ρ c) (Proc.devRef .tc main_arg11) = _
  after_results
  exact kept_arg11 m ρ c

/-- After the second call the result buffer holds the two-layer function of the arguments. -/
theorem second_layer (c : Dev nD) :
    W4 m ρ c (Proc.devRef .tc main_v37) = twoLayer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 7).trans ((final1 (V3 m ρ) c).trans ?_)
  show layer (V3 m ρ c main_v30) (V3 m ρ c main_v20) (V3 m ρ c main_v32) (V3 m ρ c main_arg8) (V3 m ρ c main_v34) (V3 m ρ c main_v36) (V3 m ρ c main_arg11) = _
  rw [entry1_nbr m ρ c, entry1_node m ρ c, entry1_wrel m ρ c, entry1_brel m ρ c, entry1_wroot m ρ c, entry1_wlin m ρ c, entry1_blin m ρ c, first_layer m ρ c]
  rfl

end Cert.KernelIdeal.Hand

end
-- ==== Proof.KernelRun.lean ====
/-
  The kernel program's run with its result named: every weakly fair execution terminates, nothing faulting, with the
  result buffer at the two-layer function of the arguments and the arguments as launched.

  The program is four segments in order — the first host stretch, the first kernel call, the second host stretch, the second
  kernel call — and the library's rule for a list of segments runs them from the launch: each segment is entered from the
  buffer contents the one before it left, so at the return every buffer that is not scoped to a call holds the last of those
  contents. At the result buffer that is the two-layer function (the host-stretch module); at an argument buffer it is the
  launch contents, since nothing writes an argument. The launch deals each core its buffers, its generator register and an
  empty ledger of what it owes the other cores, which is the first segment's entry state; the last segment's exit state is
  read against the final memory buffer by buffer.
-/
import proofs.«140693_j80015240725034_1_alg».proof.Proof.KernelHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.RefValue (twoLayer)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read: the result buffer at the two-layer function of the arguments, every argument unchanged. -/
theorem run : θ_run (defs (F := Ideal)) (onTc (τ := τ) (main (F := Ideal))) ⟨m, fun _ => 0, ρ⟩ (fun r => ∀ c : Dev nD,
      r.2.mem ((c.tc : Thread nD τ).loc main_v37) = twoLayer (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    -- @main is the run of its four segments
    (fun c Q => by rw [main_run m ρ c])
    -- each call is entered once
    (by simp only [segs, Pipeline.Seg.pipes_host, Pipeline.Seg.pipes_region, Pipeline.Seg.pipes_nil]; decide)
    -- no core owes another anything at launch, and no ghost resource rides beside the buffers
    (O₀ := 0) (hL := fun _ _ => rfl) (G := fun _ => iprop(emp))
    (u₀ := initOf (Pipeline.cells cfgs cellOf_inj) (Pipeline.launchToks cfgs cellOf_inj))
    (hu₀ := by
      -- the launch element is the pipelines' own; the ghost resources are empty on every core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the first segment is entered with every unscoped buffer at its launch contents, the last left with them at `W4`
    (T₀ := fun c => iprop(StableHlo.held (c : Thread nD τ) (Pipeline.ucRefs τ sig) (W0 m ρ c) ∗ R c)) (Tₙ := Tₙ m ρ)
    -- each segment's exit state is the next one's entry state, by name
    (hch := ⟨fun _ => .rfl, fun _ => .rfl, fun _ => .rfl, fun _ => .rfl, fun _ => .rfl⟩)
    (hinit := by
      -- what the launch deals a core: its buffers (the first entry state's), its generator register, an empty ledger
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- at the return every unscoped buffer of the final memory holds the last boundary's contents
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    -- the result buffer by the two-layer equation, each argument by its walk back to the launch memory
    (hQ := fun s h c =>
      ⟨(h c _ (mem_uc main_v37 (by decide))).trans (second_layer m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Hand

end
-- ==== Proof.lean ====
/-
  The kernel computes what the reference computes, on the extended reals: two GraphConv + Linear + ReLU layers over one
  edge list.

  Both programs gather the rows of the node features along the edges' sources and add them into the edges' destinations
  (the same host operations on the same words), and both then take
      max ((A · W_relᵀ + H · W_rootᵀ + b_rel) · W_linᵀ + b_lin) 0
  of the neighbour sums `A` and the features `H`, twice. The kernel does it 1024 rows at a time in two pipelined calls, with the
  weights transposed and narrowed on the host beforehand; the reference in whole-array host operations, adding `b_rel` before
  the `H` term instead of after it. On extended reals the narrowings are identities, a block of rows of the result depends
  on the same rows of `A` and `H` only, and the two orders of the three-term sum agree by commutativity and associativity
  of addition, which hold at the infinities too: so neither program's value needs the inputs finite, and the precondition is
  not opened.

  The modules: LayerSpec (the layer as a function read index by index), KernelBlock (what one grid point stores),
  KernelRegion (from blocks to the result array of each call), RefLayer (the reference's layer and run as that function),
  KernelHost (the host operations around the calls), KernelRun (the kernel program's run with its result named).
-/
import proofs.«140693_j80015240725034_1_alg».proof.Defs
import proofs.«140693_j80015240725034_1_alg».proof.Proof.Gen.Kernel
import proofs.«140693_j80015240725034_1_alg».proof.Proof.Gen.Kernel.Skeleton
import proofs.«140693_j80015240725034_1_alg».proof.Proof.Gen.Kernel.Launch
import proofs.«140693_j80015240725034_1_alg».proof.Proof.Gen.Kernel.Points
import proofs.«140693_j80015240725034_1_alg».proof.Proof.Gen.Kernel.Frame
import proofs.«140693_j80015240725034_1_alg».proof.Proof.Gen.KernelIdeal
import proofs.«140693_j80015240725034_1_alg».proof.Proof.Gen.KernelIdeal.Skeleton
import proofs.«140693_j80015240725034_1_alg».proof.Proof.Gen.KernelIdeal.Launch
import proofs.«140693_j80015240725034_1_alg».proof.Proof.Gen.KernelIdeal.Points
import proofs.«140693_j80015240725034_1_alg».proof.Proof.Gen.KernelIdeal.Frame
import proofs.«140693_j80015240725034_1_alg».proof.Proof.Gen.ReferenceIdeal
import proofs.«140693_j80015240725034_1_alg».proof.Proof.Gen.ReferenceIdeal.Run
import proofs.«140693_j80015240725034_1_alg».proof.Proof.Gen.ReferenceIdeal.Read
import proofs.«140693_j80015240725034_1_alg».proof.Proof.Gen.Pre_finite_inputs
import proofs.«140693_j80015240725034_1_alg».proof.Proof.RefLayer
import proofs.«140693_j80015240725034_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the arguments both programs end with the two-layer function of the arguments in their
    result buffers: the kernel by its run read through its two calls, the reference by its run read as two layers. -/
theorem algebraic : Cert.algebraic_KernelIdeal_ReferenceIdeal := by
  intro m ρ m' ρ' _ hagree
  refine ⟨fun c => Cert.ReferenceIdeal.RefValue.twoLayer (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
